-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10000 : Shape := ⟨2, ![8192, 10000]⟩
abbrev S8192 : Shape := ⟨1, ![8192]⟩
abbrev S_ : Shape := ⟨0, ![]⟩
abbrev S1x10000 : Shape := ⟨2, ![1, 10000]⟩
abbrev S1 : Shape := ⟨1, ![1]⟩

class Facts : Prop where
  bcast_S_S8192x10000 : S_.BroadcastsInDim S8192x10000 (![] : Fin 0 → Fin S8192x10000.rank)
  reducesTo_S8192x10000_S_d0_1 : S8192x10000.ReducesTo [0, 1] S_
  h_S_ : 0 < S_.numel
  bcast_S_S8192 : S_.BroadcastsInDim S8192 (![] : Fin 0 → Fin S8192.rank)
  reducesTo_S8192_S_d0 : S8192.ReducesTo [0] S_
  reducesTo_S_S_d : S_.ReducesTo [] S_
  bcast_S_S1x10000 : S_.BroadcastsInDim S1x10000 (![] : Fin 0 → Fin S1x10000.rank)
  reducesTo_S1x10000_S_d0_1 : S1x10000.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1x10000 .f32) (main_arg7 : FVec F S1 .f32) (main_v12 : IVec S_ 1) (main_v15 : IVec S8192x10000 1) (main_c_5 : IVec S_ 1) : IVec S_ 1 :=
  let main_v16 : IVec S_ 1 := (fun x v => Host.reduce IntOp.andi x v reducesTo_S8192x10000_S_d0_1 h_S_) main_v15 main_c_5
  let main_v17 : IVec S_ 1 := andi main_v12 main_v16
  let main_v18 : FVec F S1x10000 .f32 := Host.absf main_arg6
  let main_cst_6 : FVec F S_ .f32 := constant S_ .f32 0x7F800000#32
  let main_v19 : FVec F S1x10000 .f32 := broadcastInDim S1x10000 ![] bcast_S_S1x10000 main_cst_6
  let main_v20 : IVec S1x10000 1 := cmpf .olt main_v18 main_v19
  let main_c_7 : IVec S_ 1 := constantI S_ 1 1#1
  let main_v21 : IVec S_ 1 := (fun x v => Host.reduce IntOp.andi x v reducesTo_S1x10000_S_d0_1 h_S_) main_v20 main_c_7
  let main_v22 : IVec S_ 1 := andi main_v17 main_v21
  let main_v23 : FVec F S1 .f32 := Host.absf main_arg7
  let main_cst_8 : FVec F S_ .f32 := constant S_ .f32 0x7F800000#32
  let main_v24 : FVec F S1 .f32 := broadcastInDim S1 ![] bcast_S_S1 main_cst_8
  let main_v25 : IVec S1 1 := cmpf .olt main_v23 main_v24
  let main_c_9 : IVec S_ 1 := constantI S_ 1 1#1
  let main_v26 : IVec S_ 1 := (fun x v => Host.reduce IntOp.andi x v reducesTo_S1_S_d0 h_S_) main_v25 main_c_9
  let main_v27 : IVec S_ 1 := andi main_v22 main_v26
  main_v27

def fn {F : FTy → Type} [FloatOps F] (main_arg0 : FVec F S8192x10000 .f32) (main_arg1 : IVec S8192 32) (main_arg2 : FVec F S8192 .f32) (main_arg3 : FVec F S_ .f32) (main_arg4 : FVec F S8192x10000 .f32) (main_arg5 : IVec S8192 1) (main_arg6 : FVec F S1x10000 .f32) (main_arg7 : FVec F S1 .f32) : IVec S_ 1 :=
  let main_v0 : FVec F S8192x10000 .f32 := Host.absf main_arg0
  let main_cst : FVec F S_ .f32 := constant S_ .f32 0x7F800000#32
  let main_v1 : FVec F S8192x10000 .f32 := broadcastInDim S8192x10000 ![] bcast_S_S8192x10000 main_cst
  let main_v2 : IVec S8192x10000 1 := cmpf .olt main_v0 main_v1
  let main_c : IVec S_ 1 := constantI S_ 1 1#1
  let main_v3 : IVec S_ 1 := (fun x v => Host.reduce IntOp.andi x v reducesTo_S8192x10000_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S8192x10000 .f32 := Host.absf main_arg4
  let main_cst_4 : FVec F S_ .f32 := constant S_ .f32 0x7F800000#32
  let main_v14 : FVec F S8192x10000 .f32 := broadcastInDim S8192x10000 ![] bcast_S_S8192x10000 main_cst_4
  let main_v15 : IVec S8192x10000 1 := cmpf .olt main_v13 main_v14
  let main_c_5 : IVec S_ 1 := constantI S_ 1 1#1
  fn_part1 (F := F) main_arg6 main_arg7 main_v12 main_v15 main_c_5
-- ==== Kernel.lean ====
abbrev S8192x10000 : Shape := ⟨2, ![8192, 10000]⟩
abbrev S8192 : Shape := ⟨1, ![8192]⟩
abbrev S_ : Shape := ⟨0, ![]⟩
abbrev S1x10000 : Shape := ⟨2, ![1, 10000]⟩
abbrev S1 : Shape := ⟨1, ![1]⟩
abbrev S10000x1 : Shape := ⟨2, ![10000, 1]⟩
abbrev S1x1 : Shape := ⟨2, ![1, 1]⟩
abbrev S64x8x128 : Shape := ⟨3, ![64, 8, 128]⟩
abbrev S128x10000 : Shape := ⟨2, ![128, 10000]⟩
abbrev S128 : Shape := ⟨1, ![128]⟩
abbrev S1x8x128 : Shape := ⟨3, ![1, 8, 128]⟩
abbrev S128x1 : Shape := ⟨2, ![128, 1]⟩
abbrev S1x128 : Shape := ⟨2, ![1, 128]⟩
abbrev S64x1x1 : Shape := ⟨3, ![64, 1, 1]⟩
abbrev S64 : Shape := ⟨1, ![64]⟩

abbrev nBuf : Space → Nat
  | .hbm => 19
  | .vmem => 13
  | .smem => 0
  | _ => 0

abbrev bufTy : (tb : Table) → Fin (tcTables nBuf tb) → BufTy
  | .hbm, ⟨0, _⟩ => ⟨S8192x10000, .f32⟩
  | .hbm, ⟨1, _⟩ => ⟨S8192, .i32⟩
  | .hbm, ⟨2, _⟩ => ⟨S8192, .f32⟩
  | .hbm, ⟨3, _⟩ => ⟨S_, .f32⟩
  | .hbm, ⟨4, _⟩ => ⟨S8192x10000, .f32⟩
  | .hbm, ⟨5, _⟩ => ⟨S8192, .i1⟩
  | .hbm, ⟨6, _⟩ => ⟨S1x10000, .f32⟩
  | .hbm, ⟨7, _⟩ => ⟨S1, .f32⟩
  | .hbm, ⟨8, _⟩ => ⟨S10000x1, .f32⟩
  | .hbm, ⟨9, _⟩ => ⟨S1x1, .f32⟩
  | .hbm, ⟨10, _⟩ => ⟨S1x1, .f32⟩
  | .hbm, ⟨11, _⟩ => ⟨S8192, .f32⟩
  | .hbm, ⟨12, _⟩ => ⟨S64x8x128, .f32⟩
  | .hbm, ⟨13, _⟩ => ⟨S64x1x1, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S128x10000, .f32⟩
  | .local _ .vmem, ⟨1, _⟩ => ⟨S128x10000, .f32⟩
  | .local _ .vmem, ⟨2, _⟩ => ⟨S128x10000, .f32⟩
  | .local _ .vmem, ⟨3, _⟩ => ⟨S128x10000, .f32⟩
  | .local _ .vmem, ⟨4, _⟩ => ⟨S10000x1, .f32⟩
  | .local _ .vmem, ⟨5, _⟩ => ⟨S1x1, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S1x1, .f32⟩
  | .local _ .vmem, ⟨11, _⟩ => ⟨S1x8x128, .f32⟩
  | .local _ .vmem, ⟨12, _⟩ => ⟨S1x8x128, .f32⟩
  | _, _ => ⟨S8192x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1x10000_S10000x1_1_0 : S1x10000.Transposes [1, 0] S10000x1
  shapeCasts_S1_S1x1 : S1.ShapeCasts S1x1
  shapeCasts_S_S1x1 : S_.ShapeCasts S1x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S128x10000_S128x10000_0_0 : ∀ a, (![0, 0] : Fin 2 → Nat) a + S128x10000.size a ≤ S128x10000.size a
  h_S128x10000 : 0 < S128x10000.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S128x1_S128 : S128x1.ShapeCasts S128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  reduces_S1x128_S1 : S1x128.Reduces [1] S1
  inb_S1x8x128_S1x8x128_0_0_0 : ∀ a, (![0, 0, 0] : Fin 3 → Nat) a + S1x8x128.size a ≤ S1x8x128.size a
  h_S1x8x128 : 0 < S1x8x128.numel
  slices_S64x8x128_S64x1x1_0_0_0 : S64x8x128.Slices ![0, 0, 0] S64x1x1
  shapeCasts_S64x1x1_S64 : S64x1x1.ShapeCasts S64
  reducesTo_S64_S_d0 : S64.ReducesTo [0] S_
  h_S_ : 0 < S_.numel
  dot_S128x10000_S10000x1_S128x1_1_0_0_1_n_n_wf : DotDims.WF S128x10000 S10000x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S8192x10000.size a
  hwx0_0 : ∀ i : grid0.Coords, EltTy.bits .f32 = 32 ∨ (Rect.block (s := S8192x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x10000.size a ≤ S8192x10000.size a
  hwx0_1 : ∀ i : grid0.Coords, EltTy.bits .f32 = 32 ∨ (Rect.block (s := S8192x10000) S128x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S10000x1.size a
  hwx0_2 : ∀ i : grid0.Coords, EltTy.bits .f32 = 32 ∨ (Rect.block (s := S10000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S8192.size a
  hwx0_4 : ∀ i : grid0.Coords, EltTy.bits .f32 = 32 ∨ (Rect.block (s := S8192) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S8192.size a
  hwx0_5 : ∀ i : grid0.Coords, EltTy.bits .f32 = 32 ∨ (Rect.block (s := S8192) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S64x8x128.size a
  hwx0_7 : ∀ i : grid0.Coords, EltTy.bits .f32 = 32 ∨ (Rect.block (s := S64x8x128) S1x8x128.size (cc0_transform_7 i) (hinb0_7 i)).WholeWords (EltTy.packing .f32)

variable [Facts₀]

def dot_S128x10000_S10000x1_S128x1_1_0_0_1_n_n : DotDims S128x10000 S10000x1 S128x1 where
  lhsContracting := [1]
  rhsContracting := [0]
  lhsNonContracting := [0]
  rhsNonContracting := [1]
  lhsBatch := []
  rhsBatch := []
  wf := dot_S128x10000_S10000x1_S128x1_1_0_0_1_n_n_wf

abbrev win0_0 : Pipeline.Window sig grid0 :=
  Pipeline.Window.ofSpec (Memref.whole main_arg0) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x10000 : Shape := ⟨2, ![8192, 10000]⟩
abbrev S8192 : Shape := ⟨1, ![8192]⟩
abbrev S_ : Shape := ⟨0, ![]⟩
abbrev S1x10000 : Shape := ⟨2, ![1, 10000]⟩
abbrev S1 : Shape := ⟨1, ![1]⟩
abbrev S8192x1 : Shape := ⟨2, ![8192, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x10000, .f32⟩
  | .hbm, ⟨1, _⟩ => ⟨S8192, .i32⟩
  | .hbm, ⟨2, _⟩ => ⟨S8192, .f32⟩
  | .hbm, ⟨3, _⟩ => ⟨S_, .f32⟩
  | .hbm, ⟨4, _⟩ => ⟨S8192x10000, .f32⟩
  | .hbm, ⟨5, _⟩ => ⟨S8192, .i1⟩
  | .hbm, ⟨6, _⟩ => ⟨S1x10000, .f32⟩
  | .hbm, ⟨7, _⟩ => ⟨S1, .f32⟩
  | .hbm, ⟨8, _⟩ => ⟨S8192x1, .f32⟩
  | .hbm, ⟨9, _⟩ => ⟨S1x1, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192, .f32⟩
  | .hbm, ⟨16, _⟩ => ⟨S8192x1, .f32⟩
  | .hbm, ⟨17, _⟩ => ⟨S1x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S8192x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_cst : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_call2_v0 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S8192x10000_S1x10000_S8192x1_1_1_0_0_n_n_wf : DotDims.WF S8192x10000 S1x10000 S8192x1 [1] [1] [0] [0] [] []

variable [Facts₀]

def dot_S8192x10000_S1x10000_S8192x1_1_1_0_0_n_n : DotDims S8192x10000 S1x10000 S8192x1 where
  lhsContracting := [1]
  rhsContracting := [1]
  lhsNonContracting := [0]
  rhsNonContracting := [0]
  lhsBatch := []
  rhsBatch := []
  wf := dot_S8192x10000_S1x10000_S8192x1_1_1_0_0_n_n_wf

class Facts : Prop extends Facts₀ where

variable [Facts]
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.LibFlagMask.lean ====
/-
  A one-bit flag as a factor, and a vector's sum over its one coordinate.

  • A flag c is one bit. Read as a number it is 0 or 1, so 1 − c is 1 or 0; on the extended reals v · 1 = v and
    v · 0 = 0 hold for EVERY v, the infinities included, and 1 − 1 = 0, 1 − 0 = 1 are differences of reals. So
    multiplying a value by 1 − c is selecting 0 for a set flag and the value for a clear one (`mul_one_sub_flag`):
    what joins a program that masks by multiplication with one that masks by selection, with no finiteness asked.
  • A sum over the indices of a rank-1 array is the sum over its one coordinate (`sum_idx1`): the rank-1 companion
    of the library's double sum over a rank-2 array's two coordinates.
-/
import Idealize.ShloMosaic.PureOps.Ideal.Laws
import Idealize.ShloMosaic.Lib.ValueIdx

noncomputable section

namespace Cert.FlagMask

open Idealize.ShloMosaic Idealize.ShloMosaic.ValueIdx

/-- A value times (1 − flag), the flag read as the number 0 or 1, is 0 for a set flag and the value for a clear
    one — on every extended real. -/
theorem mul_one_sub_flag (c : BitVec 1) (v : EReal) :
    v * (1 - ((c.toNat : ℝ) : EReal)) = Scalar.select c 0 v := by
  by_cases h : c = 1#1
  · subst h
    rw [select_one]
    have e : (1 : EReal) - (((1#1 : BitVec 1).toNat : ℝ) : EReal) = 0 := by
      show (1 : EReal) - (((1 : ℕ) : ℝ) : EReal) = 0
      rw [Nat.cast_one, EReal.coe_one]
      exact (EReal.coe_sub 1 1).symm.trans (by norm_num)
    rw [e, mul_zero]
  · have h0 := eq_zero_of_ne_one h
    subst h0
    rw [select_zero]
    have e : (1 : EReal) - (((0#1 : BitVec 1).toNat : ℝ) : EReal) = 1 := by
      show (1 : EReal) - (((0 : ℕ) : ℝ) : EReal) = 1
      rw [Nat.cast_zero, EReal.coe_zero, sub_zero]
    rw [e, mul_one]

/-- A sum over the indices of a vector is the sum over its one coordinate. -/
theorem sum_idx1 {M : Type*} [AddCommMonoid M] {n : ℕ} (f : (⟨1, ![n]⟩ : Shape).Idx → M) :
    ∑ j, f j = ∑ r : Fin n, f (ix1 r) :=
  Fintype.sum_equiv ⟨fun j => j 0, ix1, fun j => (eq_ix1 j).symm, fun _ => rfl⟩ _ _ (fun j => congrArg f (eq_ix1 j))

end Cert.FlagMask

end
-- ==== Proof.TdLoss.lean ====
/-
  The double-Q-learning temporal-difference loss, as mathematics on the extended reals.

  For a batch of 8192 rows, a state matrix x and a next-state matrix y (both 8192 × 10000), one weight row w
  (1 × 10000), a bias b, a discount d, rewards rw and a done flag per row:

    value x r  = max (Σ_k x(r,k) · w(0,k) + b) 0              the linear layer followed by a ReLU
    err r      = | rw r + d · value y r − value x r |           the temporal-difference error, |e| = max e (−e)
    loss r     = 0 where the row is done, err r elsewhere
    mean       = (Σ_r loss r) / 8192

  Two facts join the two programs that compute it.
  • The mask. One program multiplies err r by (1 − done r) with the flag read as the number 0 or 1, the other
    selects 0 or err r by the flag. On the extended reals x · 0 = 0 and x · 1 = x for EVERY x, the infinities
    included, and 1 − 1 = 0, 1 − 0 = 1 are differences of reals: so the two agree with no finiteness needed
    (`Cert.FlagMask.mul_one_sub_flag`).
  • The grouping. One program sums the 8192 rows at once, the other sums 64 tiles of 128 rows and then the 64
    partial sums: addition of extended reals is commutative and associative, so the two totals agree.
-/
import Idealize.ShloMosaic.PureOps.Ideal.Laws
import Idealize.ShloMosaic.Lib.ValueIdx
import proofs.«145331_j31782757990809_2_alg».proof.Proof.LibSumSplit
import proofs.«145331_j31782757990809_2_alg».proof.Proof.LibFlagMask

noncomputable section

namespace Cert.TdLoss

open Idealize.ShloMosaic Idealize.ShloMosaic.ValueIdx

/-- The two big matrices' type and the weight row's. -/
abbrev Mat := (⟨2, ![8192, 10000]⟩ : Shape).Idx → EReal
abbrev WRow := (⟨2, ![1, 10000]⟩ : Shape).Idx → EReal

/-- Row r of x against the weight row, plus the bias, clipped below at 0. -/
def value (x : Mat) (w : WRow) (b : EReal) (r : Fin 8192) : EReal :=
  max ((∑ k : Fin 10000, x (ix2 r k) * w (ix2 (0 : Fin 1) k)) + b) 0

/-- The temporal-difference error of row r: the absolute value of reward + discount · next value − value. -/
def err (x y : Mat) (w : WRow) (b d : EReal) (rw : Fin 8192 → EReal) (r : Fin 8192) : EReal :=
  max (rw r + d * value y w b r - value x w b r) (-(rw r + d * value y w b r - value x w b r))

/-- The loss of row r: nothing for a finished row, the error otherwise. -/
def loss (x y : Mat) (w : WRow) (b d : EReal) (rw : Fin 8192 → EReal) (dn : Fin 8192 → BitVec 1) (r : Fin 8192) : EReal :=
  Scalar.select (dn r) 0 (err x y w b d rw r)

/-- The mean loss over the batch, the divisor the f32 word of 8192. -/
def mean (x y : Mat) (w : WRow) (b d : EReal) (rw : Fin 8192 → EReal) (dn : Fin 8192 → BitVec 1) : EReal :=
  Ideal.div (∑ r : Fin 8192, loss x y w b d rw dn r) (Ideal.ofBits .f32 0x46000000#32)

/-- Row r of tile t, of 64 tiles of 128 rows. -/
abbrev rowOf (t : Fin 64) (q : Fin 128) : Fin 8192 := Cert.PointDist.tileIdx (by norm_num : 64 * 128 = 8192) t q

theorem rowOf_val (t : Fin 64) (q : Fin 128) : (rowOf t q).val = t.val * 128 + q.val := rfl

/-- THE GROUPING: the sum over the 8192 rows is the sum over the 64 tiles of the sums over each tile's 128 rows. -/
theorem sum_rows_eq_sum_tiles (f : Fin 8192 → EReal) :
    ∑ t : Fin 64, ∑ q : Fin 128, f (rowOf t q) = ∑ r : Fin 8192, f r :=
  (Cert.PointDist.sum_tiles (by norm_num : 64 * 128 = 8192) f).symm

end Cert.TdLoss

end
-- ==== Proof.RefTerm.lean ====
/-
  The reference computes the mean temporal-difference loss.

  Its stages, read one at a time at an index: each row's two linear layers are the contraction of the row with the
  weight row (both operands stored row by row over the shared axis), the bias is broadcast to every row, the ReLU is
  the maximum with a broadcast zero, the discount is broadcast to every row, the absolute value is max e (−e), the
  done flag selects zero, and the host's sum into a scalar is the initial zero plus the sum over every row. Divided
  by the word of 8192 this is `TdLoss.mean` of the arguments.
-/
import proofs.«145331_j31782757990809_2_alg».proof.Proof.Gen.ReferenceIdeal.Read
import proofs.«145331_j31782757990809_2_alg».proof.Proof.TdLoss

noncomputable section

namespace Cert.ReferenceIdeal.RefValue

open Cert.ReferenceIdeal Cert.ReferenceIdeal.Read Idealize.ShloMosaic Idealize.ShloMosaic.ValueIdx

/-- Row r of the vector of per-row values is row r, column 0 of the one-column matrix it was reshaped from. -/
theorem idx5 (r : Fin 8192) : idx_main_v5 (ix1 r) = ix2 r (0 : Fin 1) :=
  funext fun a => Fin.ext (by
    match a with
    | ⟨0, _⟩ => exact Nat.div_one _
    | ⟨1, _⟩ => rfl)
theorem idx11 (r : Fin 8192) : idx_main_v11 (ix1 r) = ix2 r (0 : Fin 1) :=
  funext fun a => Fin.ext (by
    match a with
    | ⟨0, _⟩ => exact Nat.div_one _
    | ⟨1, _⟩ => rfl)

/-- The contraction's operand indices at output entry (r, 0): row r of the matrix, row 0 of the weights. -/
theorem lidx0 (r : Fin 8192) (k : Fin 10000) : lidx_main_v0 (ix2 r (0 : Fin 1)) k = ix2 r k :=
  funext fun a => Fin.ext (by match a with | ⟨0, _⟩ => rfl | ⟨1, _⟩ => rfl)
theorem ridx0 (r : Fin 8192) (k : Fin 10000) : ridx_main_v0 (ix2 r (0 : Fin 1)) k = ix2 (0 : Fin 1) k :=
  funext fun a => Fin.ext (by match a with | ⟨0, _⟩ => rfl | ⟨1, _⟩ => rfl)
theorem lidx6 (r : Fin 8192) (k : Fin 10000) : lidx_main_v6 (ix2 r (0 : Fin 1)) k = ix2 r k :=
  funext fun a => Fin.ext (by match a with | ⟨0, _⟩ => rfl | ⟨1, _⟩ => rfl)
theorem ridx6 (r : Fin 8192) (k : Fin 10000) : ridx_main_v6 (ix2 r (0 : Fin 1)) k = ix2 (0 : Fin 1) k :=
  funext fun a => Fin.ext (by match a with | ⟨0, _⟩ => rfl | ⟨1, _⟩ => rfl)

/-- The bias, broadcast twice, reads the vector's one entry everywhere. -/
theorem bias2 (x7 : (⟨S1, .f32⟩ : BufTy).Contents (Elt Ideal)) (i : S8192x1.Idx) :
    val_main_v2 (F := Ideal) x7 i = x7 (ix1 (0 : Fin 1)) := by
  rw [val_main_v2_apply, val_main_v1_apply]
  exact congrArg x7 (funext fun a => Fin.ext (by match a with | ⟨0, _⟩ => rfl))
theorem bias8 (x7 : (⟨S1, .f32⟩ : BufTy).Contents (Elt Ideal)) (i : S8192x1.Idx) :
    val_main_v8 (F := Ideal) x7 i = x7 (ix1 (0 : Fin 1)) := by
  rw [val_main_v8_apply, val_main_v7_apply]
  exact congrArg x7 (funext fun a => Fin.ext (by match a with | ⟨0, _⟩ => rfl))

/-- The ReLU's broadcast zero. -/
theorem zero0 (i : S8192x1.Idx) : val_main_call0_v0 (F := Ideal) i = 0 := by
  rw [val_main_call0_v0_apply, val_main_call0_cst_apply]; exact Ideal.ofBits_zero_f32
theorem zero1 (i : S8192x1.Idx) : val_main_call1_v0 (F := Ideal) i = 0 := by
  rw [val_main_call1_v0_apply, val_main_call1_cst_apply]; exact Ideal.ofBits_zero_f32
theorem zero2 (i : S8192.Idx) : val_main_call2_v0 (F := Ideal) i = 0 := by
  rw [val_main_call2_v0_apply, val_main_cst_apply]; exact Ideal.ofBits_zero_f32

/-- The state's value at row r. -/
theorem value5 (x0 : (⟨S8192x10000, .f32⟩ : BufTy).Contents (Elt Ideal)) (x6 : (⟨S1x10000, .f32⟩ : BufTy).Contents (Elt Ideal))
    (x7 : (⟨S1, .f32⟩ : BufTy).Contents (Elt Ideal)) (r : Fin 8192) :
    val_main_v5 (F := Ideal) x0 x6 x7 (ix1 r) = TdLoss.value x0 x6 (x7 (ix1 (0 : Fin 1))) r := by
  rw [val_main_v5_apply, idx5, val_main_v4_apply, val_main_v3_apply, val_main_v0_apply, bias2, zero0]
  simp only [lidx0, ridx0]
  rfl
/-- The next state's value at row r. -/
theorem value11 (x4 : (⟨S8192x10000, .f32⟩ : BufTy).Contents (Elt Ideal)) (x6 : (⟨S1x10000, .f32⟩ : BufTy).Contents (Elt Ideal))
    (x7 : (⟨S1, .f32⟩ : BufTy).Contents (Elt Ideal)) (r : Fin 8192) :
    val_main_v11 (F := Ideal) x4 x6 x7 (ix1 r) = TdLoss.value x4 x6 (x7 (ix1 (0 : Fin 1))) r := by
  rw [val_main_v11_apply, idx11, val_main_v10_apply, val_main_v9_apply, val_main_v6_apply, bias8, zero1]
  simp only [lidx6, ridx6]
  rfl

/-- The masked error at row r is the row's loss. -/
theorem loss17 (x0 : (⟨S8192x10000, .f32⟩ : BufTy).Contents (Elt Ideal)) (x2 : (⟨S8192, .f32⟩ : BufTy).Contents (Elt Ideal))
    (x3 : (⟨S_, .f32⟩ : BufTy).Contents (Elt Ideal)) (x4 : (⟨S8192x10000, .f32⟩ : BufTy).Contents (Elt Ideal))
    (x5 : (⟨S8192, .i1⟩ : BufTy).Contents (Elt Ideal)) (x6 : (⟨S1x10000, .f32⟩ : BufTy).Contents (Elt Ideal))
    (x7 : (⟨S1, .f32⟩ : BufTy).Contents (Elt Ideal)) (r : Fin 8192) :
    val_main_v17 (F := Ideal) x0 x2 x3 x4 x5 x6 x7 (ix1 r)
      = TdLoss.loss x0 x4 x6 (x7 (ix1 (0 : Fin 1))) (x3 ix0) (fun r => x2 (ix1 r)) (fun r => x5 (ix1 r)) r := by
  rw [val_main_v17_apply, zero2, val_main_v16_apply, val_main_v15_apply, val_main_v14_apply, val_main_v13_apply,
    val_main_v12_apply, value11, value5]
  rfl

/-- THE REFERENCE'S RESULT: the mean loss of its arguments. -/
theorem result_eq (x0 : (⟨S8192x10000, .f32⟩ : BufTy).Contents (Elt Ideal)) (x2 : (⟨S8192, .f32⟩ : BufTy).Contents (Elt Ideal))
    (x3 : (⟨S_, .f32⟩ : BufTy).Contents (Elt Ideal)) (x4 : (⟨S8192x10000, .f32⟩ : BufTy).Contents (Elt Ideal))
    (x5 : (⟨S8192, .i1⟩ : BufTy).Contents (Elt Ideal)) (x6 : (⟨S1x10000, .f32⟩ : BufTy).Contents (Elt Ideal))
    (x7 : (⟨S1, .f32⟩ : BufTy).Contents (Elt Ideal)) :
    val_main_v19 (F := Ideal) x0 x2 x3 x4 x5 x6 x7
      = fun _ => TdLoss.mean x0 x4 x6 (x7 (ix1 (0 : Fin 1))) (x3 ix0) (fun r => x2 (ix1 r)) (fun r => x5 (ix1 r)) := by
  funext i
  rw [val_main_v19_apply, val_main_v18_apply, val_main_cst_0_apply, val_main_cst_1_apply, Cert.FlagMask.sum_idx1]
  simp only [loss17]
  show Ideal.div (Ideal.ofBits .f32 0x00000000#32 + _) _ = _
  rw [Ideal.ofBits_zero_f32, zero_add]
  rfl

end Cert.ReferenceIdeal.RefValue

end
-- ==== Proof.Arrays.lean ====
/-
  What the region finds in its arrays, and each window's block read at coordinates.

  Four of the kernel's seven inputs are computed on the host before the region: the weight row transposed to a
  column (entry (k, 0) of the column is entry (0, k) of the row), the bias and the discount each viewed as a 1 × 1
  array, and the done flags converted to numbers (a flag c becomes the number of its bit, 0 or 1). The other three
  are arguments as launched.

  The grid has 64 points. At point t the two matrices' windows and the rewards' and the flags' windows are at block t
  along their first axis (rows t · 128 … t · 128 + 127), the weight column, the bias and the discount at their one
  block, and the output at block (t, 0, 0). So entry (q, k) of a matrix block is entry (t · 128 + q, k) of the matrix,
  and entry q of a vector block is entry t · 128 + q of the vector.
-/
import proofs.«145331_j31782757990809_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The arrays the host computes before the region -/

/-- The weight column is the weight row transposed. -/
theorem V_v0 (c : Dev nD) : V m c main_v0 = transpose S10000x1 [1, 0] (m ((c : Thread nD τ).loc main_arg6)) transposes_S1x10000_S10000x1_1_0 := by
  show StableHlo.after hostOps0 (fun b => m (c, b)) (Proc.devRef .tc main_v0) = _
  after_results
/-- The bias as a 1 × 1 array. -/
theorem V_v1 (c : Dev nD) : V m c main_v1 = shapeCast S1x1 (m ((c : Thread nD τ).loc main_arg7)) shapeCasts_S1_S1x1 := by
  show StableHlo.after hostOps0 (fun b => m (c, b)) (Proc.devRef .tc main_v1) = _
  after_results
  rfl
/-- The discount as a 1 × 1 array. -/
theorem V_v2 (c : Dev nD) : V m c main_v2 = shapeCast S1x1 (m ((c : Thread nD τ).loc main_arg3)) shapeCasts_S_S1x1 := by
  show StableHlo.after hostOps0 (fun b => m (c, b)) (Proc.devRef .tc main_v2) = _
  after_results
  rfl
/-- The done flags as numbers. -/
theorem V_v3 (c : Dev nD) : V m c main_v3 = uitofp (F := Ideal) .f32 (m ((c : Thread nD τ).loc main_arg5)) := by
  show StableHlo.after hostOps0 (fun b => m (c, b)) (Proc.devRef .tc main_v3) = _
  after_results

/-! ## The index maps over the grid -/

/-- Each window's block index at every point, decided over the 64 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = t.val
    ∧ win0_5.index t (0 : Fin 1) = t.val
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-! ## The blocks read at coordinates -/

/-- Entry (q, k) of the first matrix's block at point t is entry (t · 128 + q, k) of the matrix. -/
theorem blk0 (c : Dev nD) (t : Fin cfg0.N) (q : Fin 128) (r : Fin 8192) (hr : r.val = t.val * 128 + q.val) (k : Fin 10000) :
    iblk m c 0 t (ix2 q k) = m ((c : Thread nD τ).loc main_arg0) (ix2 r k) := by
  obtain ⟨e0, e1, -⟩ := idx_facts t
  show V m c main_arg0 (((cfg0.win 0).blk t).view.emb (ix2 q k)) = _
  rw [V_main_arg0]
  refine congrArg _ (funext fun a => Fin.ext ?_)
  match a with
  | ⟨0, _⟩ => show win0_0.index t (0 : Fin 2) * 128 + 1 * q.val = r.val; omega
  | ⟨1, _⟩ => show win0_0.index t (1 : Fin 2) * 10000 + 1 * k.val = k.val; omega

/-- The same for the second matrix. -/
theorem blk1 (c : Dev nD) (t : Fin cfg0.N) (q : Fin 128) (r : Fin 8192) (hr : r.val = t.val * 128 + q.val) (k : Fin 10000) :
    iblk m c 1 t (ix2 q k) = m ((c : Thread nD τ).loc main_arg4) (ix2 r k) := by
  obtain ⟨-, -, e0, e1, -⟩ := idx_facts t
  show V m c main_arg4 (((cfg0.win 1).blk t).view.emb (ix2 q k)) = _
  rw [V_main_arg4]
  refine congrArg _ (funext fun a => Fin.ext ?_)
  match a with
  | ⟨0, _⟩ => show win0_1.index t (0 : Fin 2) * 128 + 1 * q.val = r.val; omega
  | ⟨1, _⟩ => show win0_1.index t (1 : Fin 2) * 10000 + 1 * k.val = k.val; omega

/-- Entry (k, 0) of the weight column's one block is entry (0, k) of the weight row. -/
theorem blk2 (c : Dev nD) (t : Fin cfg0.N) (k : Fin 10000) :
    iblk m c 2 t (ix2 k (0 : Fin 1)) = m ((c : Thread nD τ).loc main_arg6) (ix2 (0 : Fin 1) k) := by
  obtain ⟨-, -, -, -, e0, e1, -⟩ := idx_facts t
  show V m c main_v0 (((cfg0.win 2).blk t).view.emb (ix2 k (0 : Fin 1))) = _
  rw [V_v0]
  refine transpose_apply [1, 0] _ transposes_S1x10000_S10000x1_1_0 _ (ix2 (0 : Fin 1) k) fun b => ?_
  match b with
  | ⟨0, _⟩ => show k.val = win0_2.index t (0 : Fin 2) * 10000 + 1 * k.val; omega
  | ⟨1, _⟩ => show (0 : ℕ) = win0_2.index t (1 : Fin 2) * 1 + 1 * 0; omega

/-- The bias block's one entry is the bias vector's one entry. -/
theorem blk3 (c : Dev nD) (t : Fin cfg0.N) :
    iblk m c 3 t (ix2 (0 : Fin 1) (0 : Fin 1)) = m ((c : Thread nD τ).loc main_arg7) (ix1 (0 : Fin 1)) := by
  obtain ⟨-, -, -, -, -, -, e0, e1, -⟩ := idx_facts t
  show V m c main_v1 (((cfg0.win 3).blk t).view.emb (ix2 (0 : Fin 1) (0 : Fin 1))) = _
  rw [V_v1]
  refine shapeCast_apply _ shapeCasts_S1_S1x1 _ (ix1 (0 : Fin 1)) ?_
  rw [Shape.rowMajor_val_one, Shape.rowMajor_val_two]
  show (0 : ℕ) = (win0_3.index t (0 : Fin 2) * 1 + 1 * 0) * 1 + (win0_3.index t (1 : Fin 2) * 1 + 1 * 0)
  omega

/-- The discount block's one entry is the discount. -/
theorem blk6 (c : Dev nD) (t : Fin cfg0.N) :
    iblk m c 6 t (ix2 (0 : Fin 1) (0 : Fin 1)) = m ((c : Thread nD τ).loc main_arg3) ix0 := by
  obtain ⟨-, -, -, -, -, -, -, -, -, -, e0, e1, -⟩ := idx_facts t
  show V m c main_v2 (((cfg0.win 6).blk t).view.emb (ix2 (0 : Fin 1) (0 : Fin 1))) = _
  rw [V_v2]
  refine shapeCast_apply _ shapeCasts_S_S1x1 _ ix0 ?_
  rw [Shape.rowMajor_val_two]
  show (S_.rowMajor ix0).val = (win0_6.index t (0 : Fin 2) * 1 + 1 * 0) * 1 + (win0_6.index t (1 : Fin 2) * 1 + 1 * 0)
  rw [e0, e1]
  rfl

/-- Entry q of the rewards' block at point t is entry t · 128 + q of the rewards. -/
theorem blk4 (c : Dev nD) (t : Fin cfg0.N) (q : Fin 128) (r : Fin 8192) (hr : r.val = t.val * 128 + q.val) :
    iblk m c 4 t (ix1 q) = m ((c : Thread nD τ).loc main_arg2) (ix1 r) := by
  obtain ⟨-, -, -, -, -, -, -, -, e0, -⟩ := idx_facts t
  show V m c main_arg2 (((cfg0.win 4).blk t).view.emb (ix1 q)) = _
  rw [V_main_arg2]
  refine congrArg _ (funext fun a => Fin.ext ?_)
  match a with
  | ⟨0, _⟩ => show win0_4.index t (0 : Fin 1) * 128 + 1 * q.val = r.val; omega

/-- Entry q of the flags' block at point t is the number of flag t · 128 + q. -/
theorem blk5 (c : Dev nD) (t : Fin cfg0.N) (q : Fin 128) (r : Fin 8192) (hr : r.val = t.val * 128 + q.val) :
    iblk m c 5 t (ix1 q) = (((m ((c : Thread nD τ).loc main_arg5) (ix1 r)).toNat : ℝ) : EReal) := by
  obtain ⟨-, -, -, -, -, -, -, -, -, e0, -⟩ := idx_facts t
  show V m c main_v3 (((cfg0.win 5).blk t).view.emb (ix1 q)) = _
  rw [V_v3]
  show (((m ((c : Thread nD τ).loc main_arg5) (((cfg0.win 5).blk t).view.emb (ix1 q))).toNat : ℝ) : EReal) = _
  have e : ((cfg0.win 5).blk t).view.emb (ix1 q) = ix1 r := funext fun a => Fin.ext (by
    match a with
    | ⟨0, _⟩ => show win0_5.index t (0 : Fin 1) * 128 + 1 * q.val = r.val; omega)
  rw [e]

end Cert.KernelIdeal.Arrays

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.Tile.lean ====
/-
  What one grid point of the kernel stores: the sum of a tile's 128 masked errors.

  The body loads a tile of 128 rows of each big matrix, the whole weight column (10000 × 1), the bias and the
  discount (1 × 1 each), the tile's 128 rewards and its 128 done flags (already numbers, 0 or 1). For each row q of
  the tile it forms the row's product with the weight column, adds the bias, clips below at 0 (for both matrices),
  takes | reward + discount · next value − value |, multiplies by 1 − flag, sums the 128 products and writes the sum
  to every entry of the output block. Here that stored value is read at any entry of the block, over the loaded
  blocks as variables.
-/
import proofs.«145331_j31782757990809_2_alg».proof.Proof.Gen.KernelIdeal.Skeleton
import proofs.«145331_j31782757990809_2_alg».proof.Proof.LibDotRows
import proofs.«145331_j31782757990809_2_alg».proof.Proof.LibRowCast
import Idealize.ShloMosaic.PureOps.Ideal.Laws
import Idealize.ShloMosaic.Lib.Pipeline.Value
import Idealize.ShloMosaic.Lib.ValueIdx
import Idealize.ShloMosaic.Lib.IdealHost

noncomputable section

namespace Cert.KernelIdeal.Tile

open Cert.KernelIdeal Cert.KernelIdeal.Gen Idealize.ShloMosaic Idealize.ShloMosaic.ValueIdx

/-- The masked error of row q of a tile, over the loaded blocks: x and y the two matrices' tiles, w the weight
    column, b and d the bias and the discount (1 × 1), rw the rewards, fl the flags as numbers. -/
def rowTerm (w : FVec Ideal S10000x1 .f32) (x y : FVec Ideal S128x10000 .f32) (b d : FVec Ideal S1x1 .f32)
    (rw fl : FVec Ideal S128 .f32) (q : Fin 128) : EReal :=
  max (rw (ix1 q) + d (ix2 (0 : Fin 1) (0 : Fin 1)) * max ((∑ k : Fin 10000, y (ix2 q k) * w (ix2 k (0 : Fin 1))) + b (ix2 (0 : Fin 1) (0 : Fin 1))) 0
        - max ((∑ k : Fin 10000, x (ix2 q k) * w (ix2 k (0 : Fin 1))) + b (ix2 (0 : Fin 1) (0 : Fin 1))) 0)
      (-(rw (ix1 q) + d (ix2 (0 : Fin 1) (0 : Fin 1)) * max ((∑ k : Fin 10000, y (ix2 q k) * w (ix2 k (0 : Fin 1))) + b (ix2 (0 : Fin 1) (0 : Fin 1))) 0
        - max ((∑ k : Fin 10000, x (ix2 q k) * w (ix2 k (0 : Fin 1))) + b (ix2 (0 : Fin 1) (0 : Fin 1))) 0))
    * (1 - fl (ix1 q))

/-- The one entry of a 1 × 1 block. -/
theorem extract00 {α : Type} (v : S1x1.Idx → α) (h : ∀ a, (![0, 0] : Fin 2 → Nat) a < S1x1.size a) :
    extractAt ![0, 0] v h = v (ix2 (0 : Fin 1) (0 : Fin 1)) :=
  congrArg v (funext fun a => Fin.ext (by match a with | ⟨0, _⟩ => rfl | ⟨1, _⟩ => rfl))

/-- A vector of 128 entries, viewed as a row, summed along the row, viewed as a 1 × 1 block and read at its one
    entry, is the sum of the 128 entries. -/
theorem sum_row (u : FVec Ideal S128 .f32) (hc1 : S128.ShapeCasts S1x128) (hred : S1x128.Reduces [1] S1)
    (hφ : FKind.Formats .f32) (hacc : (0x00000000#32 : BitVec 32) = FKind.add.neutral .f32 hφ)
    (hc2 : S1.ShapeCasts S1x1) (hpos : ∀ a, (![0, 0] : Fin 2 → Nat) a < S1x1.size a) :
    extractAt ![0, 0] (shapeCast S1x1 (multiReduction .add [1] S1 (shapeCast S1x128 u hc1) 0x00000000#32 hred hφ hacc) hc2) hpos
      = ∑ q : Fin 128, u (ix1 q) := by
  refine (extract00 _ hpos).trans ?_
  refine (shapeCast_apply _ hc2 (ix2 (0 : Fin 1) (0 : Fin 1)) (ix1 (0 : Fin 1)) (by
    rw [Shape.rowMajor_val_two, Shape.rowMajor_val_one]; rfl)).trans ?_
  refine (Ideal.multiReduction_add_single (shapeCast S1x128 u hc1) 0x00000000#32 hred hφ hacc (ix1 (0 : Fin 1))).trans ?_
  show ∑ q : Fin 128, shapeCast S1x128 u hc1 (hred.lift (ix1 (0 : Fin 1)) q) = _
  refine Finset.sum_congr rfl fun q _ => ?_
  have e : hred.lift (ix1 (0 : Fin 1)) q = ix2 (0 : Fin 1) q :=
    funext fun a => Fin.ext (by match a with | ⟨0, _⟩ => rfl | ⟨1, _⟩ => rfl)
  rw [e]
  exact Cert.RowCast.shapeCast_row_apply u hc1 (0 : Fin 1) q

/-- Row q of a 128 × 10000 tile against the 10000 × 1 weight column, the 128 × 1 product viewed as a vector. -/
theorem matvec (a : FVec Ideal S128x10000 .f32) (w : FVec Ideal S10000x1 .f32)
    (hc : S128x1.ShapeCasts S128) (q : Fin 128) :
    shapeCast S128 (matmul dot_S128x10000_S10000x1_S128x1_1_0_0_1_n_n none a w (constant S128x1 .f32 0x00000000#32)) hc (ix1 q)
      = ∑ k : Fin 10000, a (ix2 q k) * w (ix2 k (0 : Fin 1)) := by
  refine (shapeCast_apply _ hc (ix1 q) (ix2 q (0 : Fin 1)) (by
    rw [Shape.rowMajor_val_two, Shape.rowMajor_val_one]; show q.val * 1 + 0 = q.val; omega)).trans ?_
  refine (Ideal.matmul_constant_zero_apply dot_S128x10000_S10000x1_S128x1_1_0_0_1_n_n none a w (ix2 q (0 : Fin 1))).trans ?_
  generalize hl : a = l
  generalize hr : w = r
  generalize hp : q = p
  generalize hq : (0 : Fin 1) = q
  dot_rows dot_S128x10000_S10000x1_S128x1_1_0_0_1_n_n S128x10000 S10000x1 10000

/-- THE STORED VALUE at any entry of the output block: the sum over the tile's rows of the masked errors. -/
theorem pay_apply (v0 : FVec Ideal S10000x1 .f32) (v2 v3 : FVec Ideal S128x10000 .f32) (v4 v6 : FVec Ideal S1x1 .f32)
    (v20 v26 : FVec Ideal S128 .f32) (j : S1x8x128.Idx) :
    k0_pay1 (F := Ideal) v0 v2 v3 v4 v6 v20 v26 j = ∑ q : Fin 128, rowTerm v0 v2 v3 v4 v6 v20 v26 q := by
  unfold k0_pay1
  refine (sum_row _ _ _ _ _ _ _).trans ?_
  refine Finset.sum_congr rfl fun q _ => ?_
  simp only [mulf, absf, subf, addf, maximumf, broadcast, extract00, shapeCast_self,
    Ideal.mulf_def, Ideal.addf_def, Ideal.subf_def, Ideal.maximumf_def, Ideal.absf_def]
  unfold rowTerm
  simp only [Scalar.ofBits, Ideal.ofBits_def, Ideal.ofBits_zero_f32, Ideal.ofBits_one_f32, matvec]

end Cert.KernelIdeal.Tile

end
-- ==== Proof.Output.lean ====
/-
  The kernel's result: the mean temporal-difference loss of its arguments.

  Point t of the grid writes the sum of tile t's 128 row losses to every entry of output block (t, 0, 0): the stored
  sum of masked errors, with every block read where the window puts it, is the sum of `TdLoss.loss` over the tile's
  rows (the mask law). The 64 blocks cover the 64 × 8 × 128 output, so after the run entry (t, a, b) of the output is
  tile t's sum. The host then takes entry (t, 0, 0) of each tile, sums the 64 of them from zero and divides by the
  word of 8192: the sum over the tiles of the tiles' sums is the sum over all 8192 rows (the grouping law), so the
  result is `TdLoss.mean`.
-/
import proofs.«145331_j31782757990809_2_alg».proof.Proof.Arrays
import proofs.«145331_j31782757990809_2_alg».proof.Proof.Tile
import proofs.«145331_j31782757990809_2_alg».proof.Proof.TdLoss

set_option maxRecDepth 16384

noncomputable section

namespace Cert.KernelIdeal.Output

open Cert.KernelIdeal Cert.KernelIdeal.Gen Idealize.ShloMosaic Idealize.ShloMosaic.TcCoe Idealize.SL.Sem
open Idealize.ShloMosaic.StableHlo Idealize.ShloMosaic.ValueIdx Idealize.ShloMosaic.Pipeline

variable (m : (ℓ : Loc nD τ sig) → Buf (Elt Ideal) ℓ) (ρ : Dev nD → PrngReg)

/-- The loss of row r on core c, of the arguments as launched. -/
def rowLoss (c : Dev nD) (r : Fin 8192) : EReal :=
  TdLoss.loss (m ((c : Thread nD τ).loc main_arg0)) (m ((c : Thread nD τ).loc main_arg4)) (m ((c : Thread nD τ).loc main_arg6))
    (m ((c : Thread nD τ).loc main_arg7) (ix1 (0 : Fin 1))) (m ((c : Thread nD τ).loc main_arg3) ix0)
    (fun r => m ((c : Thread nD τ).loc main_arg2) (ix1 r)) (fun r => m ((c : Thread nD τ).loc main_arg5) (ix1 r)) r

/-- The sum of tile t's 128 row losses. -/
def tileSum (c : Dev nD) (t : Fin 64) : EReal := ∑ q : Fin 128, rowLoss m c (TdLoss.rowOf t q)

/-- The output array after the run: every entry of tile t's block holds tile t's sum. -/
def G (c : Dev nD) : S64x8x128.Idx → EReal := fun i => tileSum m c ⟨(i 0).val, (i 0).isLt⟩

/-- The masked error of row q of tile t, read off the blocks at point t, is that row's loss. -/
theorem rowTerm_blk (c : Dev nD) (t : Fin cfg0.N) (T : Fin 64) (hT : T.val = t.val) (q : Fin 128) :
    Tile.rowTerm (iblk m c 2 t) (iblk m c 0 t) (iblk m c 1 t) (iblk m c 3 t) (iblk m c 6 t) (iblk m c 4 t) (iblk m c 5 t) q
      = rowLoss m c (TdLoss.rowOf T q) := by
  have hr : (TdLoss.rowOf T q).val = t.val * 128 + q.val := by rw [TdLoss.rowOf_val, hT]
  unfold Tile.rowTerm
  simp only [Arrays.blk0 m c t q (TdLoss.rowOf T q) hr, Arrays.blk1 m c t q (TdLoss.rowOf T q) hr, Arrays.blk2 m c t,
    Arrays.blk3 m c t, Arrays.blk6 m c t, Arrays.blk4 m c t q (TdLoss.rowOf T q) hr, Arrays.blk5 m c t q (TdLoss.rowOf T q) hr]
  exact Cert.FlagMask.mul_one_sub_flag _ _

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- WHAT POINT t WRITES BACK is block t of `G`. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  unfold out0_7
  rw [View.canon_unit_zero hz3]
  simp only [View.ld_unit_zero (S := S10000x1) hz2, View.ld_unit_zero (S := S128x10000) hz2, View.ld_unit_zero (S := S1x1) hz2,
    View.ld_unit_zero (S := S128) hz1]
  funext j
  have ht : t.val < 64 := lt_of_lt_of_eq t.isLt N_0
  obtain ⟨-, -, -, -, -, -, -, -, -, -, -, -, e0, -, -⟩ := Arrays.idx_facts t
  have hj : (j 0).val < 1 := (j 0).isLt
  show k0_pay1 (F := Ideal) (iblk m c 2 t) (iblk m c 0 t) (iblk m c 1 t) (iblk m c 3 t) (iblk m c 6 t) (iblk m c 4 t) (iblk m c 5 t) j
    = G m c (((cfg0.win 7).blk t).view.emb j)
  refine (Tile.pay_apply (iblk m c 2 t) (iblk m c 0 t) (iblk m c 1 t) (iblk m c 3 t) (iblk m c 6 t) (iblk m c 4 t) (iblk m c 5 t) j).trans ?_
  unfold G tileSum
  refine Finset.sum_congr rfl fun q _ => ?_
  refine rowTerm_blk m c t _ ?_ q
  show win0_7.index t (0 : Fin 3) * 1 + 1 * (j 0).val = t.val
  omega

/-- An index of the output is in point t's block iff each coordinate is in the block's range on its axis. -/
theorem mem_blk7 (t : Fin cfg0.N) (i : S64x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v4).slice (win0_7.rect t)).set ↔ _
  rw [View.set_slice_whole, Rect.mem_set_unit]
  exact Iff.rfl

/-- Every entry of the output is in the block of the point numbered by its first coordinate. -/
theorem cover7 (i : S64x8x128.Idx) : ∃ t : Fin cfg0.N, (cfg0.win 7).flush t = true ∧ i ∈ ((cfg0.win 7).blk t).view.set := by
  have h0 : (i 0).val < 64 := (i 0).isLt
  have h1 : (i 1).val < 8 := (i 1).isLt
  have h2 : (i 2).val < 128 := (i 2).isLt
  refine ⟨⟨(i 0).val, lt_of_lt_of_eq h0 N_0.symm⟩, flush0_7 _, ?_⟩
  rw [mem_blk7]
  obtain ⟨-, -, -, -, -, -, -, -, -, -, -, -, e0, e1, e2⟩ := Arrays.idx_facts ⟨(i 0).val, lt_of_lt_of_eq h0 N_0.symm⟩
  intro a
  match a with
  | ⟨0, _⟩ =>
    show win0_7.index ⟨(i 0).val, _⟩ (0 : Fin 3) * 1 ≤ (i 0).val ∧ (i 0).val < win0_7.index ⟨(i 0).val, _⟩ (0 : Fin 3) * 1 + 1
    rw [e0]
    show (i 0).val * 1 ≤ (i 0).val ∧ (i 0).val < (i 0).val * 1 + 1
    constructor <;> omega
  | ⟨1, _⟩ =>
    show win0_7.index ⟨(i 0).val, _⟩ (1 : Fin 3) * 8 ≤ (i 1).val ∧ (i 1).val < win0_7.index ⟨(i 0).val, _⟩ (1 : Fin 3) * 8 + 8
    rw [e1]; constructor <;> omega
  | ⟨2, _⟩ =>
    show win0_7.index ⟨(i 0).val, _⟩ (2 : Fin 3) * 128 ≤ (i 2).val ∧ (i 2).val < win0_7.index ⟨(i 0).val, _⟩ (2 : Fin 3) * 128 + 128
    rw [e2]; constructor <;> omega

/-- THE OUTPUT ARRAY after the run is `G`. -/
theorem final7 (c : Dev nD) : (dats m 0 c).arrAt 7 cfg0.N = G m c :=
  (dats m 0 c).arrAt_eq_of_cover 7 (G m c) (fun t _ => flushed_eq m c t) (cover7)

/-- Entry t of an array's slice [0:64, 0:1, 0:1] viewed as a vector of 64 is entry (t, 0, 0) of the array. -/
theorem entry_t00 (g : S64x8x128.Idx → EReal) (t : Fin 64) :
    shapeCast S64 (extractStridedSlice S64x1x1 ![0, 0, 0] g slices_S64x8x128_S64x1x1_0_0_0) shapeCasts_S64x1x1_S64 (ix1 t)
      = g (ix3 t (0 : Fin 8) (0 : Fin 128)) := by
  refine (shapeCast_apply (s := S64x1x1) (t := S64) _ shapeCasts_S64x1x1_S64 (ix1 t) (ix3 t (0 : Fin 1) (0 : Fin 1)) (by
    rw [Shape.rowMajor_val_three, Shape.rowMajor_val_one]; show (t.val * 1 + 0) * 1 + 0 = t.val; omega)).trans ?_
  exact extractStridedSlice_apply (s := S64x8x128) (t := S64x1x1) ![0, 0, 0] g slices_S64x8x128_S64x1x1_0_0_0
    (ix3 t (0 : Fin 1) (0 : Fin 1)) (ix3 t (0 : Fin 8) (0 : Fin 128)) (fun a => by
      match a with
      | ⟨0, _⟩ => show t.val = 0 + t.val; omega
      | ⟨1, _⟩ => show (0 : ℕ) = 0 + 0; rfl
      | ⟨2, _⟩ => show (0 : ℕ) = 0 + 0; rfl)

/-- Entry t of the vector the host sums: entry (t, 0, 0) of the output, tile t's sum. -/
theorem tile_entry (c : Dev nD) (t : Fin 64) :
    shapeCast S64 (extractStridedSlice S64x1x1 ![0, 0, 0] (G m c) slices_S64x8x128_S64x1x1_0_0_0) shapeCasts_S64x1x1_S64 (ix1 t)
      = tileSum m c t :=
  (entry_t00 (G m c) t).trans (congrArg (tileSum m c) (Fin.ext rfl))

/-- The sum over the tiles of the tiles' sums is the sum over all rows. -/
theorem sum_tileSum (c : Dev nD) : ∑ t : Fin 64, tileSum m c t = ∑ r : Fin 8192, rowLoss m c r :=
  TdLoss.sum_rows_eq_sum_tiles (rowLoss m c)

/-- THE RESULT: what the host's lines after the region leave in the result buffer. -/
theorem result_eq (c : Dev nD) :
    Pipeline.afterTail₀ cfgs (dats m) 0 (V0 m) [hostOps1] c main_v8
      = fun _ => TdLoss.mean (m ((c : Thread nD τ).loc main_arg0)) (m ((c : Thread nD τ).loc main_arg4)) (m ((c : Thread nD τ).loc main_arg6))
          (m ((c : Thread nD τ).loc main_arg7) (ix1 (0 : Fin 1))) (m ((c : Thread nD τ).loc main_arg3) ix0)
          (fun r => m ((c : Thread nD τ).loc main_arg2) (ix1 r)) (fun r => m ((c : Thread nD τ).loc main_arg5) (ix1 r)) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v4) = G m c :=
    (Pipeline.withArrays_arr spec0 launch0.win.arr_inj c _ _ 7).trans (final7 m c)
  show Host.divf (Host.reduceAdd (shapeCast S64 (extractStridedSlice S64x1x1 ![0, 0, 0]
      (Pipeline.withArrays (cfgs 0).spec c (V0 m c) (fun w => (dats m 0 c).arrAt w (cfgs 0).N) (Proc.devRef .tc main_v4))
      slices_S64x8x128_S64x1x1_0_0_0) shapeCasts_S64x1x1_S64) (constant (F := Ideal) S_ .f32 0x00000000#32) reducesTo_S64_S_d0 h_S_)
    (constant (F := Ideal) S_ .f32 0x46000000#32) = _
  rw [hw]
  funext x
  show FloatOps.hostDivf (Host.reduceAdd (shapeCast S64 (extractStridedSlice S64x1x1 ![0, 0, 0] (G m c)
      slices_S64x8x128_S64x1x1_0_0_0) shapeCasts_S64x1x1_S64) (constant (F := Ideal) S_ .f32 0x00000000#32) reducesTo_S64_S_d0 h_S_ x)
    (Ideal.ofBits .f32 0x46000000#32) = _
  simp only [Host.reduceAdd, Ideal.hostReduceAdd_def, Ideal.hostDivf_def]
  rw [Ideal.hostReduceAdd_total reducesTo_S64_S_d0 (fun b => b.elim0), Cert.FlagMask.sum_idx1]
  simp only [tile_entry]
  rw [sum_tileSum]
  show Ideal.div (Ideal.ofBits .f32 0x00000000#32 + _) _ = _
  rw [Ideal.ofBits_zero_f32, zero_add]
  rfl

/-- THE KERNEL'S RUN: every weakly fair execution terminates with the result buffer at the mean loss of the arguments
    and the arguments unchanged. The result is among the buffers no window stages, which the host's lines after the
    region leave as `result_eq` says; the arguments end as the frame run leaves them. -/
theorem run : θ_run defs (onTc (τ := τ) (main (F := Ideal))) ⟨m, fun _ => 0, ρ⟩ fun r => ∀ c : Dev nD,
      r.2.mem ((c.tc : Thread nD τ).loc main_v8)
        = (fun _ => TdLoss.mean (m ((c : Thread nD τ).loc main_arg0)) (m ((c : Thread nD τ).loc main_arg4)) (m ((c : Thread nD τ).loc main_arg6))
            (m ((c : Thread nD τ).loc main_arg7) (ix1 (0 : Fin 1))) (m ((c : Thread nD τ).loc main_arg3) ix0)
            (fun r => m ((c : Thread nD τ).loc main_arg2) (ix1 r)) (fun r => m ((c : Thread nD τ).loc main_arg5) (ix1 r)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v8 (Pipeline.mem_restRefs_of main_v8 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 4).trans (((dats m 0 c).arrAt_in 4 rfl _).trans ((A_eq m c 4).trans (V_main_arg2 m c))),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Output

end
-- ==== Proof.lean ====
/-
  The double-Q-learning temporal-difference loss: a tiled kernel against its plain reference.

  Both programs compute, for 8192 rows, value(x, r) = max (row r of x · the weight row + bias) 0 for the state matrix
  and for the next-state matrix, the error | reward r + discount · next value r − value r |, drop the rows that are
  done, sum, and divide by 8192.

  The kernel walks 64 tiles of 128 rows. For each tile it multiplies the two 128 × 10000 blocks by the weight column
  on the matrix unit, forms the 128 errors, multiplies each by 1 − done (the flag as the number 0 or 1), sums them
  and writes the sum to every entry of an 8 × 128 output block; the host then adds up entry (t, 0, 0) of the 64
  blocks and divides. The reference contracts the whole matrices with the weight row, selects 0 where a row is done
  and sums all 8192 rows at once.

  On the extended reals the two agree for every input, finite or not:
  • a matrix-unit product into a zero accumulator and the host's contraction are the same sum of products, and the
    kernel's weight column is the reference's weight row transposed;
  • x · (1 − flag) is 0 for a set flag and x for a clear one, because x · 0 = 0 and x · 1 = x hold at the infinities
    too — the same as selecting 0 or x by the flag;
  • the sum over 64 tiles of each tile's 128-row sum is the sum over the 8192 rows, addition being commutative and
    associative;
  • both divide by the same word, 8192.
  So the precondition is never opened. The idealization rewrote nothing in the kernel, so that the idealized kernel
  is the kernel's sanctioned idealization is trivially true. The three frames are the generated frame proofs (the
  reference's is its generated run with the result dropped).
-/
import proofs.«145331_j31782757990809_2_alg».proof.Defs
import proofs.«145331_j31782757990809_2_alg».proof.Proof.Gen.Kernel
import proofs.«145331_j31782757990809_2_alg».proof.Proof.Gen.Kernel.Skeleton
import proofs.«145331_j31782757990809_2_alg».proof.Proof.Gen.Kernel.Launch
import proofs.«145331_j31782757990809_2_alg».proof.Proof.Gen.Kernel.Points
import proofs.«145331_j31782757990809_2_alg».proof.Proof.Gen.Kernel.Frame
import proofs.«145331_j31782757990809_2_alg».proof.Proof.Gen.KernelIdeal
import proofs.«145331_j31782757990809_2_alg».proof.Proof.Gen.KernelIdeal.Skeleton
import proofs.«145331_j31782757990809_2_alg».proof.Proof.Gen.KernelIdeal.Launch
import proofs.«145331_j31782757990809_2_alg».proof.Proof.Gen.KernelIdeal.Points
import proofs.«145331_j31782757990809_2_alg».proof.Proof.Gen.KernelIdeal.Frame
import proofs.«145331_j31782757990809_2_alg».proof.Proof.Gen.ReferenceIdeal
import proofs.«145331_j31782757990809_2_alg».proof.Proof.Gen.Pre_finite_inputs
import proofs.«145331_j31782757990809_2_alg».proof.Proof.Gen.ReferenceIdeal.Run
import proofs.«145331_j31782757990809_2_alg».proof.Proof.Gen.ReferenceIdeal.Read
import proofs.«145331_j31782757990809_2_alg».proof.Proof.RefTerm
import proofs.«145331_j31782757990809_2_alg».proof.Proof.Output
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ
/-- So does the idealized kernel. -/
theorem frame_kernelIdeal : Cert.frame_KernelIdeal := fun m ρ _ => Cert.KernelIdeal.Gen.frame m ρ
/-- And the reference: its run, the result's clause dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the arguments the idealized kernel ends at the mean loss of its arguments
    (`Output.run`) and the reference at the mean loss of its own (`RefValue.result_eq` over its generated run):
    one function of arguments that agree. -/
theorem algebraic : Cert.algebraic_KernelIdeal_ReferenceIdeal := by
  intro m ρ m' ρ' _ hagree
  refine ⟨_, Cert.KernelIdeal.Output.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v19_eq (F := Ideal) _ _ _ _ _ _ _).trans ?_
  rw [Cert.ReferenceIdeal.RefValue.result_eq,
    (hagree c).1, (hagree c).2.2.1, (hagree c).2.2.2.1, (hagree c).2.2.2.2.1, (hagree c).2.2.2.2.2.1,
    (hagree c).2.2.2.2.2.2.1, (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
